-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x8192 : Shape := ⟨2, ![128, 8192]⟩
abbrev S128x16x8192 : Shape := ⟨3, ![128, 16, 8192]⟩
abbrev S_ : Shape := ⟨0, ![]⟩

class Facts : Prop where
  bcast_S_S128x8192 : S_.BroadcastsInDim S128x8192 (![] : Fin 0 → Fin S128x8192.rank)
  reducesTo_S128x8192_S_d0_1 : S128x8192.ReducesTo [0, 1] S_
  h_S_ : 0 < S_.numel
  bcast_S_S128x16x8192 : S_.BroadcastsInDim S128x16x8192 (![] : Fin 0 → Fin S128x16x8192.rank)
  reducesTo_S128x16x8192_S_d0_1_2 : S128x16x8192.ReducesTo [0, 1, 2] S_

variable [Facts]

def fn {F : FTy → Type} [FloatOps F] (main_arg0 : FVec F S128x8192 .f32) (main_arg1 : FVec F S128x16x8192 .f32) : IVec S_ 1 :=
  let main_v0 : FVec F S128x8192 .f32 := Host.absf main_arg0
  let main_cst : FVec F S_ .f32 := constant S_ .f32 0x7F800000#32
  let main_v1 : FVec F S128x8192 .f32 := broadcastInDim S128x8192 ![] bcast_S_S128x8192 main_cst
  let main_v2 : IVec S128x8192 1 := cmpf .olt main_v0 main_v1
  let main_c : IVec S_ 1 := constantI S_ 1 1#1
  let main_v3 : IVec S_ 1 := (fun x v => Host.reduce IntOp.andi x v reducesTo_S128x8192_S_d0_1 h_S_) main_v2 main_c
  let main_v4 : FVec F S128x16x8192 .f32 := Host.absf main_arg1
  let main_cst_0 : FVec F S_ .f32 := constant S_ .f32 0x7F800000#32
  let main_v5 : FVec F S128x16x8192 .f32 := broadcastInDim S128x16x8192 ![] bcast_S_S128x16x8192 main_cst_0
  let main_v6 : IVec S128x16x8192 1 := cmpf .olt main_v4 main_v5
  let main_c_1 : IVec S_ 1 := constantI S_ 1 1#1
  let main_v7 : IVec S_ 1 := (fun x v => Host.reduce IntOp.andi x v reducesTo_S128x16x8192_S_d0_1_2 h_S_) main_v6 main_c_1
  let main_v8 : IVec S_ 1 := andi main_v3 main_v7
  let main_cst_2 : FVec F S_ .f32 := constant S_ .f32 0x3F800000#32
  let main_v9 : FVec F S128x16x8192 .f32 := broadcastInDim S128x16x8192 ![] bcast_S_S128x16x8192 main_cst_2
  let main_v10 : IVec S128x16x8192 1 := cmpf .olt main_arg1 main_v9
  let main_c_3 : IVec S_ 1 := constantI S_ 1 1#1
  let main_v11 : IVec S_ 1 := (fun x v => Host.reduce IntOp.andi x v reducesTo_S128x16x8192_S_d0_1_2 h_S_) main_v10 main_c_3
  let main_v12 : IVec S_ 1 := andi main_v8 main_v11
  main_v12
-- ==== Kernel.lean ====
abbrev S128x8192 : Shape := ⟨2, ![128, 8192]⟩
abbrev S128x16x8192 : Shape := ⟨3, ![128, 16, 8192]⟩
abbrev S8x8192 : Shape := ⟨2, ![8, 8192]⟩
abbrev S8x16x8192 : Shape := ⟨3, ![8, 16, 8192]⟩
abbrev S8 : Shape := ⟨1, ![8]⟩
abbrev S8x1 : Shape := ⟨2, ![8, 1]⟩
abbrev S8x1x8192 : Shape := ⟨3, ![8, 1, 8192]⟩
abbrev S8x16 : Shape := ⟨2, ![8, 16]⟩
abbrev S8x16x1 : Shape := ⟨3, ![8, 16, 1]⟩

abbrev nBuf : Space → Nat
  | .hbm => 3
  | .vmem => 6
  | .smem => 0
  | _ => 0

abbrev bufTy : (tb : Table) → Fin (tcTables nBuf tb) → BufTy
  | .hbm, ⟨0, _⟩ => ⟨S128x8192, .f32⟩
  | .hbm, ⟨1, _⟩ => ⟨S128x16x8192, .f32⟩
  | .hbm, ⟨2, _⟩ => ⟨S128x8192, .f32⟩
  | .local _ .vmem, ⟨0, _⟩ => ⟨S8x8192, .f32⟩
  | .local _ .vmem, ⟨1, _⟩ => ⟨S8x8192, .f32⟩
  | .local _ .vmem, ⟨2, _⟩ => ⟨S8x16x8192, .f32⟩
  | .local _ .vmem, ⟨3, _⟩ => ⟨S8x16x8192, .f32⟩
  | .local _ .vmem, ⟨4, _⟩ => ⟨S8x8192, .f32⟩
  | .local _ .vmem, ⟨5, _⟩ => ⟨S8x8192, .f32⟩
  | _, _ => ⟨S128x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x16x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8x8192_S8x8192_0_0 : ∀ a, (![0, 0] : Fin 2 → Nat) a + S8x8192.size a ≤ S8x8192.size a
  h_S8x8192 : 0 < S8x8192.numel
  reduces_S8x8192_S8 : S8x8192.Reduces [1] S8
  shapeCasts_S8_S8x1 : S8.ShapeCasts S8x1
  broadcasts_S8x1_S8x8192 : S8x1.Broadcasts S8x8192
  inb_S8x16x8192_S8x16x8192_0_0_0 : ∀ a, (![0, 0, 0] : Fin 3 → Nat) a + S8x16x8192.size a ≤ S8x16x8192.size a
  h_S8x16x8192 : 0 < S8x16x8192.numel
  shapeCasts_S8x8192_S8x1x8192 : S8x8192.ShapeCasts S8x1x8192
  broadcasts_S8x1x8192_S8x16x8192 : S8x1x8192.Broadcasts S8x16x8192
  reduces_S8x16x8192_S8x16 : S8x16x8192.Reduces [2] S8x16
  shapeCasts_S8x16_S8x16x1 : S8x16.ShapeCasts S8x16x1
  broadcasts_S8x16x1_S8x16x8192 : S8x16x1.Broadcasts S8x16x8192
  reduces_S8x16x8192_S8x8192 : S8x16x8192.Reduces [1] S8x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x8192.size a ≤ S128x8192.size a
  hwx0_0 : ∀ i : grid0.Coords, EltTy.bits .f32 = 32 ∨ (Rect.block (s := S128x8192) S8x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x16x8192.size a ≤ S128x16x8192.size a
  hwx0_1 : ∀ i : grid0.Coords, EltTy.bits .f32 = 32 ∨ (Rect.block (s := S128x16x8192) S8x16x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x8192.size a ≤ S128x8192.size a
  hwx0_2 : ∀ i : grid0.Coords, EltTy.bits .f32 = 32 ∨ (Rect.block (s := S128x8192) S8x8192.size (cc0_transform_2 i) (hinb0_2 i)).WholeWords (EltTy.packing .f32)

variable [Facts₀]

abbrev win0_0 : Pipeline.Window sig grid0 :=
  Pipeline.Window.ofSpec (Memref.whole main_arg0) S8x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x16x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x8192 : Shape := ⟨2, ![128, 8192]⟩
abbrev S128x16x8192 : Shape := ⟨3, ![128, 16, 8192]⟩
abbrev S128x1x8192 : Shape := ⟨3, ![128, 1, 8192]⟩
abbrev S_ : Shape := ⟨0, ![]⟩
abbrev S128x16 : Shape := ⟨2, ![128, 16]⟩
abbrev S128x16x1 : Shape := ⟨3, ![128, 16, 1]⟩

abbrev nBuf : Space → Nat
  | .hbm => 32
  | .vmem => 0
  | .smem => 0
  | _ => 0

abbrev bufTy : (tb : Table) → Fin (tcTables nBuf tb) → BufTy
  | .hbm, ⟨0, _⟩ => ⟨S128x8192, .f32⟩
  | .hbm, ⟨1, _⟩ => ⟨S128x16x8192, .f32⟩
  | .hbm, ⟨2, _⟩ => ⟨S128x1x8192, .f32⟩
  | .hbm, ⟨3, _⟩ => ⟨S_, .f32⟩
  | .hbm, ⟨4, _⟩ => ⟨S_, .f32⟩
  | .hbm, ⟨5, _⟩ => ⟨S128x16x8192, .f32⟩
  | .hbm, ⟨6, _⟩ => ⟨S128x16x8192, .f32⟩
  | .hbm, ⟨7, _⟩ => ⟨S128x16x8192, .f32⟩
  | .hbm, ⟨8, _⟩ => ⟨S128x16x8192, .f32⟩
  | .hbm, ⟨9, _⟩ => ⟨S128x16x8192, .f32⟩
  | .hbm, ⟨10, _⟩ => ⟨S128x16x8192, .f32⟩
  | .hbm, ⟨11, _⟩ => ⟨S128x16x8192, .f32⟩
  | .hbm, ⟨12, _⟩ => ⟨S128x16x8192, .f32⟩
  | .hbm, ⟨13, _⟩ => ⟨S_, .f32⟩
  | .hbm, ⟨14, _⟩ => ⟨S128x16x8192, .f32⟩
  | .hbm, ⟨15, _⟩ => ⟨S128x16x8192, .f32⟩
  | .hbm, ⟨16, _⟩ => ⟨S_, .f32⟩
  | .hbm, ⟨17, _⟩ => ⟨S128x16, .f32⟩
  | .hbm, ⟨18, _⟩ => ⟨S_, .f32⟩
  | .hbm, ⟨19, _⟩ => ⟨S128x16, .f32⟩
  | .hbm, ⟨20, _⟩ => ⟨S128x16, .f32⟩
  | .hbm, ⟨21, _⟩ => ⟨S128x16x1, .f32⟩
  | .hbm, ⟨22, _⟩ => ⟨S128x16x8192, .f32⟩
  | .hbm, ⟨23, _⟩ => ⟨S128x16x8192, .f32⟩
  | .hbm, ⟨24, _⟩ => ⟨S128x16x8192, .f32⟩
  | .hbm, ⟨25, _⟩ => ⟨S_, .f32⟩
  | .hbm, ⟨26, _⟩ => ⟨S128x16, .f32⟩
  | .hbm, ⟨27, _⟩ => ⟨S128x16x1, .f32⟩
  | .hbm, ⟨28, _⟩ => ⟨S128x16x8192, .f32⟩
  | .hbm, ⟨29, _⟩ => ⟨S128x16x8192, .f32⟩
  | .hbm, ⟨30, _⟩ => ⟨S_, .f32⟩
  | .hbm, ⟨31, _⟩ => ⟨S128x8192, .f32⟩
  | _, _ => ⟨S128x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_call0_v0 : Ref sig .tc := ⟨.hbm, 4, rfl⟩
abbrev main_call0_v1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S128x8192_S128x1x8192_0_2 : S128x8192.BroadcastsInDim S128x1x8192 (![0, 2] : Fin 2 → Fin S128x1x8192.rank)
  bcast_S_S128x16x8192 : S_.BroadcastsInDim S128x16x8192 (![] : Fin 0 → Fin S128x16x8192.rank)
  bcast_S128x1x8192_S128x16x8192_0_1_2 : S128x1x8192.BroadcastsInDim S128x16x8192 (![0, 1, 2] : Fin 3 → Fin S128x16x8192.rank)
  reducesTo_S128x16x8192_S128x16_d2 : S128x16x8192.ReducesTo [2] S128x16
  h_S_ : 0 < S_.numel
  bcast_S_S128x16 : S_.BroadcastsInDim S128x16 (![] : Fin 0 → Fin S128x16.rank)
  bcast_S128x16_S128x16x1_0_1 : S128x16.BroadcastsInDim S128x16x1 (![0, 1] : Fin 2 → Fin S128x16x1.rank)
  bcast_S128x16x1_S128x16x8192_0_1_2 : S128x16x1.BroadcastsInDim S128x16x8192 (![0, 1, 2] : Fin 3 → Fin S128x16x8192.rank)
  reducesTo_S128x16x8192_S128x8192_d1 : S128x16x8192.ReducesTo [1] S128x8192

variable [Facts₀]

class Facts : Prop extends Facts₀ where

variable [Facts]
-- ==== Proof.RowSpec.lean ====
/-
  One batch row of Gumbel-softmax sampling with the maximum over the samples, written twice.

  A row has logits `l d` over the lanes `d` and, for every sample `k`, noise `u k d`. With the noise clipped from below
  at a small positive constant `c`, put `w = -log (max u c)`. The Gumbel perturbation of a logit is `-log w + l`, and at
  temperature one half the softmax weight of lane `d` in sample `k` is proportional to `exp (2 l d) / (w k d)²`.

  * The first arrangement shifts the logits by their maximum `m` over the row, forms `exp (2 (l d - m)) / (w · w)`,
    sums these over the lanes, and multiplies each by the reciprocal of the sum.
  * The second arrangement forms the perturbed logit `(-log w + l d) / (1/2)`, shifts it by its maximum over the lanes,
    exponentiates, sums over the lanes and divides.

  Either way the row's result at lane `d` is the maximum over the samples of these normalised weights. The shifts cancel
  in the quotient, whatever they are, as long as they are finite and every `w` is a positive real.
-/
import Idealize.ShloMosaic.PureOps.Ideal
import Mathlib.Data.Finset.Fold

noncomputable section

open scoped BigOperators

namespace Cert.GumbelMax

open Idealize.ShloMosaic

variable {ι κ : Type} [Fintype ι] [Fintype κ]

/-- Minus infinity, the start of every maximum. -/
abbrev negInf : EReal := Ideal.ofBits .f32 0xFF800000#32
/-- The lower clip of the noise. -/
abbrev clipLo : EReal := Ideal.ofBits .f32 0x2EDBE6FF#32
abbrev zero : EReal := Ideal.ofBits .f32 0x00000000#32
abbrev one : EReal := Ideal.ofBits .f32 0x3F800000#32
abbrev two : EReal := Ideal.ofBits .f32 0x40000000#32
abbrev half : EReal := Ideal.ofBits .f32 0x3F000000#32

/-! ## The first arrangement -/

/-- `w = 0 - log (max u c)`. -/
def negLog (u : EReal) : EReal := zero - Ideal.log (max u clipLo)

/-- The maximum of a row, from minus infinity. -/
def rowMax (l : ι → EReal) : EReal := (Finset.univ : Finset ι).fold max negInf l

/-- The unnormalised weight `exp (2 (l d - m)) / (w · w)` of lane `d`, `m` the row's maximum. -/
def weightK (l u : ι → EReal) (d : ι) : EReal :=
  Ideal.div (Ideal.exp (two * (l d - rowMax l))) (negLog (u d) * negLog (u d))

/-- The normalised weight: the weight times the reciprocal of the weights' sum over the lanes. -/
def probK (l u : ι → EReal) (d : ι) : EReal :=
  weightK l u d * Ideal.div one (∑ d', weightK l u d')

/-- The row's result: the maximum over the samples of the normalised weight. -/
def rowK (l : ι → EReal) (u : κ → ι → EReal) (d : ι) : EReal :=
  (Finset.univ : Finset κ).fold max negInf (fun k => probK l (u k) d)

/-! ## The second arrangement -/

/-- The perturbed logit at temperature one half: `(-log (-log (max c u)) + l d) / (1/2)`. -/
def logitR (l u : ι → EReal) (d : ι) : EReal :=
  Ideal.div (-(Ideal.log (-(Ideal.log (max clipLo (u d))))) + l d) half

/-- Its exponential after the shift by the row's maximum (the maximum taken once more with its own start). -/
def weightR (l u : ι → EReal) (d : ι) : EReal :=
  Ideal.exp (logitR l u d - max negInf (rowMax (logitR l u)))

/-- The softmax: the shifted exponential over the sum of the shifted exponentials. -/
def probR (l u : ι → EReal) (d : ι) : EReal :=
  Ideal.div (weightR l u d) (zero + ∑ d', weightR l u d')

/-- The row's result: the maximum over the samples of the softmax. -/
def rowR (l : ι → EReal) (u : κ → ι → EReal) (d : ι) : EReal :=
  (Finset.univ : Finset κ).fold max negInf (fun k => probR l (u k) d)

end Cert.GumbelMax

end
-- ==== Proof.Consts.lean ====
/-
  The float constants the two programs spell, as the extended reals their bit patterns denote: zero, one, two, one
  half, minus infinity, and the lower clip of the noise, which is a positive real below one.
-/
import Idealize.ShloMosaic.PureOps.Ideal

noncomputable section

namespace Cert.GumbelMax.Consts

open Idealize.ShloMosaic

theorem ofBits_zero : Ideal.ofBits .f32 0x00000000#32 = ((0 : ℝ) : EReal) := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_negInf : Ideal.ofBits .f32 0xFF800000#32 = (⊥ : EReal) := by
  simp [Ideal.ofBits, Ideal.ieee]

/-- The lower clip of the noise, the single-precision number nearest to 1e-10: 14411519 · 2⁻⁵⁷. -/
def clip : ℝ := 14411519 * (2 : ℝ) ^ (-57 : ℤ)

theorem ofBits_clip : Ideal.ofBits .f32 0x2EDBE6FF#32 = ((clip : ℝ) : EReal) := by
  unfold clip
  simp [Ideal.ofBits, Ideal.ieee, -EReal.coe_mul]

theorem clip_pos : 0 < clip := by unfold clip; positivity

theorem clip_lt_one : clip < 1 := by
  unfold clip
  rw [zpow_neg, ← div_eq_mul_inv, div_lt_one (by positivity)]
  norm_num

end Cert.GumbelMax.Consts

end
-- ==== Proof.LibRealSums.lean ====
/-
  Extended-real algebra for a quantised linear layer.

  A weight row is replaced by a ternary row `q` times one positive scale `s`.  One program forms the
  effective weight `w + (q · s − w)` and contracts it with the activations; the other contracts the
  ternary row and multiplies the finished sum by `s` once.  On the reals the two agree: the weight
  cancels, and `s` leaves the sum by distributivity.  On the extended reals both steps need every
  quantity to be finite, which is what the lemmas here assume.
-/
import Mathlib.Data.EReal.Operations
import Mathlib.Algebra.BigOperators.Ring.Finset

namespace Cert.ScaledSum

open scoped BigOperators

/-- An extended real between two reals is a real. -/
theorem real_of_between (a b : ℝ) (x : EReal) (h1 : (a : EReal) ≤ x) (h2 : x ≤ (b : EReal)) : ∃ r : ℝ, x = (r : EReal) := by
  induction x using EReal.rec with
  | bot => exact absurd h1 (not_le.2 (EReal.bot_lt_coe a))
  | coe r => exact ⟨r, rfl⟩
  | top => exact absurd h2 (not_le.2 (EReal.coe_lt_top b))

/-- The maximum of two reals, taken in the extended reals, is the real maximum. -/
theorem coe_max (a b : ℝ) : ((max a b : ℝ) : EReal) = max (a : EReal) (b : EReal) :=
  EReal.coe_strictMono.monotone.map_max

/-- A finite sum of reals, taken in the extended reals, is the real sum. -/
theorem coe_sum {ι : Type*} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- A finite sum of finite extended reals is finite. -/
theorem exists_real_sum {ι : Type*} (s : Finset ι) (f : ι → EReal) (hf : ∀ k, ∃ r : ℝ, f k = (r : EReal)) :
    ∃ r : ℝ, (∑ k ∈ s, f k) = (r : EReal) := by
  choose g hg using hf
  exact ⟨∑ k ∈ s, g k, by rw [← coe_sum]; exact Finset.sum_congr rfl fun k _ => hg k⟩

/-- The straight-through weight: a finite `w` added to `a − w` gives back `a`. -/
theorem add_sub_cancel_real (w a : ℝ) : (w : EReal) + ((a : EReal) - (w : EReal)) = (a : EReal) := by
  rw [← EReal.coe_sub, ← EReal.coe_add]; congr 1; ring

/-- Contracting the activations with the effective weight `w + (q · s − w)` is contracting them with the
    ternary row and scaling the finished sum by `s`, all quantities finite. -/
theorem sum_effective_weight {ι : Type*} [Fintype ι] (X W Q : ι → EReal) (s : EReal)
    (hX : ∀ k, ∃ r : ℝ, X k = (r : EReal)) (hW : ∀ k, ∃ r : ℝ, W k = (r : EReal))
    (hQ : ∀ k, ∃ r : ℝ, Q k = (r : EReal)) (hs : ∃ r : ℝ, s = (r : EReal)) :
    (∑ k, X k * (W k + (Q k * s - W k))) = (∑ k, X k * Q k) * s := by
  choose x hx using hX
  choose w hw using hW
  choose q hq using hQ
  obtain ⟨t, rfl⟩ := hs
  have e1 : ∀ k, X k * (W k + (Q k * (t : EReal) - W k)) = ((x k * q k * t : ℝ) : EReal) := fun k => by
    rw [hx k, hw k, hq k, ← EReal.coe_mul, add_sub_cancel_real, ← EReal.coe_mul]; congr 1; ring
  have e2 : ∀ k, X k * Q k = ((x k * q k : ℝ) : EReal) := fun k => by rw [hx k, hq k, ← EReal.coe_mul]
  rw [Finset.sum_congr rfl fun k _ => e1 k, Finset.sum_congr rfl fun k _ => e2 k, coe_sum, coe_sum, ← EReal.coe_mul,
    Finset.sum_mul]

end Cert.ScaledSum
-- ==== Proof.RowMath.lean ====
/-
  The two arrangements of a row give the same result when every logit is a real number and every noise value is a
  real number below one.

  Under these assumptions the clipped noise lies strictly between zero and one, so `w = -log (max u c)` is a positive
  real and `log w` is defined; every quantity either arrangement forms is then a real number, and the claim is one
  about real numbers. Write `P d = exp (2 l d) / (w d)²`. The first arrangement's weight is `P d · exp (-2 m)` and the
  second's is `P d · exp (-X)`, because `exp (2 (-log w)) = 1 / w²`; `m` and `X` are the two shifts. A positive factor
  common to all lanes leaves a weight divided by the sum of the weights unchanged, so both normalised weights equal
  `P d / ∑ P`. Neither shift has to be a maximum for this: it only has to be finite, which a maximum of finitely many
  reals over a row with at least one lane is.
-/
import proofs.«129532_g24936580121125_cont_sun_m_130_1_alg».proof.Proof.RowSpec
import proofs.«129532_g24936580121125_cont_sun_m_130_1_alg».proof.Proof.Consts
import proofs.«129532_g24936580121125_cont_sun_m_130_1_alg».proof.Proof.LibRealSums
import Mathlib.Analysis.SpecialFunctions.Log.Basic

noncomputable section

open scoped BigOperators

namespace Cert.GumbelMax

open Idealize.ShloMosaic Cert.ScaledSum

variable {ι κ : Type} [Fintype ι] [Fintype κ]

/-! ## Real numbers -/

/-- A positive factor common to all lanes leaves the normalised weight unchanged. -/
theorem normalise_scale (P : ι → ℝ) (hP : ∀ d, 0 < P d) (a b : ℝ) (ha : 0 < a) (hb : 0 < b) (d : ι) :
    P d * a * (1 * (1 / ∑ d', P d' * a)) = P d * b * (1 / (0 + ∑ d', P d' * b)) := by
  have hS : 0 < ∑ d', P d' := Finset.sum_pos (fun d' _ => hP d') ⟨d, Finset.mem_univ d⟩
  rw [← Finset.sum_mul, ← Finset.sum_mul, zero_add]
  have hS' := hS.ne'
  have ha' := ha.ne'
  have hb' := hb.ne'
  field_simp

/-- The first arrangement's weight is `exp (2 l) / w²` times `exp (-2 m)`. -/
theorem weight_first (l w m : ℝ) :
    Real.exp (2 * (l - m)) * (1 / (w * w)) = Real.exp (2 * l) * (1 / (w * w)) * Real.exp (-(2 * m)) := by
  rw [show 2 * (l - m) = 2 * l + -(2 * m) by ring, Real.exp_add]; ring

/-- The second arrangement's weight is `exp (2 l) / w²` times `exp (-X)`, for `w > 0`. -/
theorem weight_second (l w X : ℝ) (hw : 0 < w) :
    Real.exp ((-(Real.log w) + l) * (1 / (1 / 2)) - X) = Real.exp (2 * l) * (1 / (w * w)) * Real.exp (-X) := by
  rw [show (-(Real.log w) + l) * (1 / (1 / 2)) - X = 2 * l + (-(Real.log w) + -(Real.log w)) + -X by ring,
    Real.exp_add, Real.exp_add, Real.exp_add, Real.exp_neg (Real.log w), Real.exp_log hw, one_div, mul_inv]

/-! ## A maximum of finitely many reals is a real -/

theorem rowMax_real (f : ι → EReal) (hf : ∀ d, ∃ r : ℝ, f d = (r : EReal)) (d0 : ι) :
    ∃ r : ℝ, rowMax f = (r : EReal) := by
  choose g hg using hf
  refine real_of_between (g d0) (∑ d, |g d|) _ ?_ ?_
  · exact (Finset.le_fold_max _).2 (Or.inr ⟨d0, Finset.mem_univ d0, by rw [hg]⟩)
  · refine (Finset.fold_max_le _).2 ⟨?_, fun x _ => ?_⟩
    · show Ideal.ofBits .f32 0xFF800000#32 ≤ _
      rw [Consts.ofBits_negInf]; exact bot_le
    · rw [hg x]
      exact EReal.coe_le_coe_iff.2
        ((le_abs_self _).trans (Finset.single_le_sum (f := fun i => |g i|) (fun i _ => abs_nonneg (g i)) (Finset.mem_univ x)))

/-! ## One sample -/

/-- The clipped noise of a real below one lies strictly between zero and one, so minus its logarithm is positive. -/
theorem negLog_pos (r : ℝ) (hr : r < 1) : 0 < -(Real.log (max r Consts.clip)) := by
  have h0 : 0 < max r Consts.clip := lt_max_of_lt_right Consts.clip_pos
  have h1 : max r Consts.clip < 1 := max_lt hr Consts.clip_lt_one
  exact neg_pos.2 (Real.log_neg h0 h1)

/-- `w` as a real. -/
theorem negLog_coe (r : ℝ) (hr : r < 1) : negLog (r : EReal) = ((-(Real.log (max r Consts.clip)) : ℝ) : EReal) := by
  have h0 : 0 < max r Consts.clip := lt_max_of_lt_right Consts.clip_pos
  show Ideal.ofBits .f32 0x00000000#32 - Ideal.log (max (r : EReal) (Ideal.ofBits .f32 0x2EDBE6FF#32)) = _
  rw [Consts.ofBits_clip, Consts.ofBits_zero, ← coe_max, Ideal.log_coe, if_neg (not_le.2 h0), ← EReal.coe_sub, zero_sub]

/-- For one sample the normalised weights of the two arrangements agree. -/
theorem probK_eq_probR (l u : ι → EReal) (hl : ∀ d, ∃ r : ℝ, l d = (r : EReal))
    (hu : ∀ d, ∃ r : ℝ, u d = (r : EReal) ∧ r < 1) (d : ι) : probK l u d = probR l u d := by
  choose lr hlr using hl
  choose ur hur hur1 using hu
  obtain ⟨m, hm⟩ := rowMax_real l (fun d' => ⟨lr d', hlr d'⟩) d
  -- w, a positive real
  let w : ι → ℝ := fun d' => -(Real.log (max (ur d') Consts.clip))
  have hw : ∀ d', 0 < w d' := fun d' => negLog_pos (ur d') (hur1 d')
  have hnl : ∀ d', negLog (u d') = ((w d' : ℝ) : EReal) := fun d' => by rw [hur d']; exact negLog_coe (ur d') (hur1 d')
  -- the first arrangement's weight
  let A : ι → ℝ := fun d' => Real.exp (2 * (lr d' - m)) * (1 / (w d' * w d'))
  have hA : ∀ d', weightK l u d' = ((A d' : ℝ) : EReal) := fun d' => by
    unfold weightK
    rw [hnl d', hlr d', hm]
    show Ideal.div (Ideal.exp (Ideal.ofBits .f32 0x40000000#32 * ((lr d' : EReal) - (m : EReal)))) (((w d' : ℝ) : EReal) * ((w d' : ℝ) : EReal)) = _
    rw [Consts.ofBits_two, ← EReal.coe_sub, ← EReal.coe_mul, Ideal.exp_coe, ← EReal.coe_mul,
      Ideal.div_coe (mul_pos (hw d') (hw d')).ne', ← EReal.coe_mul]
  have hAsum : (∑ d', weightK l u d') = ((∑ d', A d' : ℝ) : EReal) := by
    rw [← coe_sum]; exact Finset.sum_congr rfl fun d' _ => hA d'
  have hApos : ∀ d', 0 < A d' := fun d' =>
    mul_pos (Real.exp_pos _) (one_div_pos.2 (mul_pos (hw d') (hw d')))
  have hAS : 0 < ∑ d', A d' := Finset.sum_pos (fun d' _ => hApos d') ⟨d, Finset.mem_univ d⟩
  have hK : probK l u d = ((A d * (1 * (1 / ∑ d', A d')) : ℝ) : EReal) := by
    unfold probK
    rw [hA d, hAsum]
    show ((A d : ℝ) : EReal) * Ideal.div (Ideal.ofBits .f32 0x3F800000#32) _ = _
    rw [Consts.ofBits_one, Ideal.div_coe hAS.ne', ← EReal.coe_mul, ← EReal.coe_mul]
  -- the second arrangement's perturbed logit
  let y : ι → ℝ := fun d' => (-(Real.log (w d')) + lr d') * (1 / (1 / 2))
  have hy : ∀ d', logitR l u d' = ((y d' : ℝ) : EReal) := fun d' => by
    have h0 : 0 < max (ur d') Consts.clip := lt_max_of_lt_right Consts.clip_pos
    unfold logitR
    rw [hur d', hlr d']
    show Ideal.div (-(Ideal.log (-(Ideal.log (max (Ideal.ofBits .f32 0x2EDBE6FF#32) ((ur d' : ℝ) : EReal))))) + ((lr d' : ℝ) : EReal))
      (Ideal.ofBits .f32 0x3F000000#32) = _
    rw [Consts.ofBits_clip, Consts.ofBits_half, max_comm, ← coe_max, Ideal.log_coe, if_neg (not_le.2 h0), ← EReal.coe_neg,
      Ideal.log_coe, if_neg (not_le.2 (hw d')), ← EReal.coe_neg, ← EReal.coe_add, Ideal.div_coe (by norm_num), ← EReal.coe_mul]
  obtain ⟨X, hX⟩ := rowMax_real (logitR l u) (fun d' => ⟨y d', hy d'⟩) d
  let B : ι → ℝ := fun d' => Real.exp (y d' - X)
  have hB : ∀ d', weightR l u d' = ((B d' : ℝ) : EReal) := fun d' => by
    unfold weightR
    rw [hy d', hX]
    show Ideal.exp (((y d' : ℝ) : EReal) - max (Ideal.ofBits .f32 0xFF800000#32) ((X : ℝ) : EReal)) = _
    rw [Consts.ofBits_negInf, max_eq_right bot_le, ← EReal.coe_sub, Ideal.exp_coe]
  have hBsum : (∑ d', weightR l u d') = ((∑ d', B d' : ℝ) : EReal) := by
    rw [← coe_sum]; exact Finset.sum_congr rfl fun d' _ => hB d'
  have hBS : 0 < ∑ d', B d' := Finset.sum_pos (fun d' _ => Real.exp_pos _) ⟨d, Finset.mem_univ d⟩
  have hR : probR l u d = ((B d * (1 / (0 + ∑ d', B d')) : ℝ) : EReal) := by
    unfold probR
    rw [hB d, hBsum]
    show Ideal.div ((B d : ℝ) : EReal) (Ideal.ofBits .f32 0x00000000#32 + _) = _
    rw [Consts.ofBits_zero, ← EReal.coe_add, Ideal.div_coe (by rw [zero_add]; exact hBS.ne'), ← EReal.coe_mul]
  -- both are the common weight times a positive factor
  let P : ι → ℝ := fun d' => Real.exp (2 * lr d') * (1 / (w d' * w d'))
  have hP : ∀ d', 0 < P d' := fun d' => mul_pos (Real.exp_pos _) (one_div_pos.2 (mul_pos (hw d') (hw d')))
  have eA : ∀ d', A d' = P d' * Real.exp (-(2 * m)) := fun d' => weight_first (lr d') (w d') m
  have eB : ∀ d', B d' = P d' * Real.exp (-X) := fun d' => weight_second (lr d') (w d') X (hw d')
  rw [hK, hR]
  refine congrArg (fun r : ℝ => (r : EReal)) ?_
  rw [eA d, eB d, Finset.sum_congr rfl fun d' _ => eA d', Finset.sum_congr rfl fun d' _ => eB d']
  exact normalise_scale P hP _ _ (Real.exp_pos _) (Real.exp_pos _) d

/-! ## The row -/

/-- The two arrangements of a row agree. -/
theorem rowK_eq_rowR (l : ι → EReal) (u : κ → ι → EReal) (hl : ∀ d, ∃ r : ℝ, l d = (r : EReal))
    (hu : ∀ k d, ∃ r : ℝ, u k d = (r : EReal) ∧ r < 1) (d : ι) : rowK l u d = rowR l u d := by
  unfold rowK rowR
  exact congrArg (fun f => Finset.fold max negInf f (Finset.univ : Finset κ))
    (funext fun k => probK_eq_probR l (u k) hl (hu k) d)

end Cert.GumbelMax

end
-- ==== Proof.LibKeepdims.lean ====
/-
  A vector of row statistics carried to a matrix, read at an index: the cast of a length-`a` vector to an
  `[a, 1]` column reads its entry at the row, and the column broadcast to `[a, b]` reads the column's entry at
  the row whatever the lane. Also: a fold of `max` is above the value it starts from, so taking the maximum
  with that start once more changes nothing.
-/
import Idealize.ShloMosaic.Lib.Pipeline.Value
import Idealize.ShloMosaic.Lib.ValueIdx
import Mathlib.Data.Finset.Fold

namespace Idealize.ShloMosaic.Keepdims

open Idealize.ShloMosaic Idealize.ShloMosaic.ValueIdx

variable {α : Type}

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a row statistic spread over the lanes of its row. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A fold of `max` from `b` is at least `b`: the maximum of `b` and the fold is the fold. -/
theorem max_fold_max_self {ι β : Type} [LinearOrder β] (s : Finset ι) (b : β) (f : ι → β) :
    max b (s.fold max b f) = s.fold max b f :=
  max_eq_right ((Finset.le_fold_max (c := b)).2 (Or.inl le_rfl))

end Idealize.ShloMosaic.Keepdims
-- ==== Proof.LibRowOps.lean ====
/-
  Row-wise reductions with `keepdims`, read at an index: a length-`a` vector viewed as an `[a, 1]` column, a column
  broadcast along its rows to `[a, b]`, and a reduction over the second axis of an `[a, b]` array read at row `r` — the
  index the reduction inserts the dropped coordinate into is (r, k), so a row maximum is the fold of `max` over the row's
  entries and a row sum is the sum over them.
-/
import Idealize.ShloMosaic.Lib.Pipeline.Value
import Idealize.ShloMosaic.Lib.ValueIdx
import Idealize.ShloMosaic.PureOps.Ideal.Laws

noncomputable section

namespace RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `r` with the second-axis coordinate `k` put back is (r, k). -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A maximum over the second axis, at row `r`: the fold of `max`, from the accumulator's value, over the row. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (r : Fin a) :
    multiReduction .maximumf [1] ⟨1, ![a]⟩ src acc h hφ hacc (ix1 r)
      = (Finset.univ : Finset (Fin b)).fold max (Ideal.ofBits .f32 acc) (fun k => src (ix2 r k)) := by
  refine (Ideal.multiReduction_maximumf_single src acc h hφ hacc (ix1 r)).trans ?_
  have hf : (src ∘ h.lift (ix1 r)) = fun k : Fin b => src (ix2 r k) := funext fun k => congrArg src (lift_row h r k)
  exact congrArg (fun f => Finset.fold max (Ideal.ofBits .f32 acc) f (Finset.univ : Finset (Fin b))) hf

/-- A sum over the second axis, at row `r`: the sum over the row. -/
theorem rowSum_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end RowOps

end
-- ==== Proof.LibBatch3.lean ====
/-
  Arrays with a batch axis, a row axis and a lane axis, read at an entry (b, r, l).

  * Merging the batch and row axes: an A×B×C array viewed as (A·B)×C holds at (b·B + r, l) what the array holds at
    (b, r, l), and the view back splits the merged row index the same way: both views keep the row-major position.
  * Broadcasts that repeat a per-batch row (A×1×C), a per-row column (A×B×1) or one shared row (1×1×C) over the
    whole A×B×C array, and a length-C vector viewed as a 1×1×C row.
  * The sum over the lane axis kept as a unit axis: an A×B×C array summed over its lanes and viewed as A×B×1 holds
    at (b, r, 0) the sum over l of the entries (b, r, l).
-/
import Idealize.ShloMosaic.PureOps.Ideal.Laws
import Idealize.ShloMosaic.Lib.ValueIdx
import Idealize.ShloMosaic.Lib.Pipeline.Value

noncomputable section

open scoped BigOperators

namespace Cert.Batch3

open Idealize.ShloMosaic Idealize.ShloMosaic.ValueIdx

variable {α : Type} {A B C : Nat}

/-- The merged view (A·B)×C of an A×B×C array at (q, l), where q = b·B + r, is the array at (b, r, l). -/
theorem merge_apply {n : Nat} (x : (⟨3, ![A, B, C]⟩ : Shape).Idx → α)
    (h : (⟨3, ![A, B, C]⟩ : Shape).ShapeCasts ⟨2, ![n, C]⟩) (b : Fin A) (r : Fin B) (l : Fin C) (q : Fin n)
    (hq : q.val = b.val * B + r.val) :
    shapeCast ⟨2, ![n, C]⟩ x h (ix2 q l) = x (ix3 b r l) := by
  refine shapeCast_apply x h (ix2 q l) (ix3 b r l) ?_
  rw [Shape.rowMajor_val_three, Shape.rowMajor_val_two]
  show (b.val * B + r.val) * C + l.val = q.val * C + l.val
  rw [hq]

/-- The split view A×B×C of an (A·B)×C array at (b, r, l) is the array at (q, l), where q = b·B + r. -/
theorem split_apply {n : Nat} (y : (⟨2, ![n, C]⟩ : Shape).Idx → α)
    (h : (⟨2, ![n, C]⟩ : Shape).ShapeCasts ⟨3, ![A, B, C]⟩) (b : Fin A) (r : Fin B) (l : Fin C) (q : Fin n)
    (hq : q.val = b.val * B + r.val) :
    shapeCast ⟨3, ![A, B, C]⟩ y h (ix3 b r l) = y (ix2 q l) := by
  refine shapeCast_apply y h (ix3 b r l) (ix2 q l) ?_
  rw [Shape.rowMajor_val_three, Shape.rowMajor_val_two]
  show q.val * C + l.val = (b.val * B + r.val) * C + l.val
  rw [hq]

/-- A per-batch row A×1×C repeated over the B rows: entry (b, r, l) is the row's (b, 0, l). -/
theorem bcast_row_apply (x : (⟨3, ![A, 1, C]⟩ : Shape).Idx → α)
    (h : (⟨3, ![A, 1, C]⟩ : Shape).Broadcasts ⟨3, ![A, B, C]⟩) (b : Fin A) (r : Fin B) (l : Fin C) :
    broadcastTo ⟨3, ![A, B, C]⟩ x h (ix3 b r l) = x (ix3 b 0 l) := by
  refine broadcastTo_apply x h (ix3 b r l) (ix3 b 0 l) (fun ax => ?_)
  match ax with
  | ⟨0, _⟩ =>
    show b.val = if A = 1 then 0 else b.val
    split_ifs with hA
    · have := b.isLt; omega
    · rfl
  | ⟨1, _⟩ => show 0 = if (1 : Nat) = 1 then 0 else r.val; rw [if_pos rfl]
  | ⟨2, _⟩ =>
    show l.val = if C = 1 then 0 else l.val
    split_ifs with hC
    · have := l.isLt; omega
    · rfl

/-- A per-row column A×B×1 repeated over the C lanes: entry (b, r, l) is the column's (b, r, 0). -/
theorem bcast_col_apply (x : (⟨3, ![A, B, 1]⟩ : Shape).Idx → α)
    (h : (⟨3, ![A, B, 1]⟩ : Shape).Broadcasts ⟨3, ![A, B, C]⟩) (b : Fin A) (r : Fin B) (l : Fin C) :
    broadcastTo ⟨3, ![A, B, C]⟩ x h (ix3 b r l) = x (ix3 b r 0) := by
  refine broadcastTo_apply x h (ix3 b r l) (ix3 b r 0) (fun ax => ?_)
  match ax with
  | ⟨0, _⟩ =>
    show b.val = if A = 1 then 0 else b.val
    split_ifs with hA
    · have := b.isLt; omega
    · rfl
  | ⟨1, _⟩ =>
    show r.val = if B = 1 then 0 else r.val
    split_ifs with hB
    · have := r.isLt; omega
    · rfl
  | ⟨2, _⟩ => show 0 = if (1 : Nat) = 1 then 0 else l.val; rw [if_pos rfl]

/-- One shared row 1×1×C repeated over every batch and row: entry (b, r, l) is the row's (0, 0, l). -/
theorem bcast_lane_apply (x : (⟨3, ![1, 1, C]⟩ : Shape).Idx → α)
    (h : (⟨3, ![1, 1, C]⟩ : Shape).Broadcasts ⟨3, ![A, B, C]⟩) (b : Fin A) (r : Fin B) (l : Fin C) :
    broadcastTo ⟨3, ![A, B, C]⟩ x h (ix3 b r l) = x (ix3 0 0 l) := by
  refine broadcastTo_apply x h (ix3 b r l) (ix3 0 0 l) (fun ax => ?_)
  match ax with
  | ⟨0, _⟩ => show 0 = if (1 : Nat) = 1 then 0 else b.val; rw [if_pos rfl]
  | ⟨1, _⟩ => show 0 = if (1 : Nat) = 1 then 0 else r.val; rw [if_pos rfl]
  | ⟨2, _⟩ =>
    show l.val = if C = 1 then 0 else l.val
    split_ifs with hC
    · have := l.isLt; omega
    · rfl

/-- A length-C vector viewed as a 1×1×C row: entry (0, 0, l) is the vector's entry l. -/
theorem vec_as_lane_apply (v : (⟨1, ![C]⟩ : Shape).Idx → α)
    (h : (⟨1, ![C]⟩ : Shape).ShapeCasts ⟨3, ![1, 1, C]⟩) (l : Fin C) :
    shapeCast ⟨3, ![1, 1, C]⟩ v h (ix3 0 0 l) = v (ix1 l) := by
  refine shapeCast_apply v h (ix3 0 0 l) (ix1 l) ?_
  rw [Shape.rowMajor_val_three, Shape.rowMajor_val_one]
  show l.val = (0 * 1 + 0) * C + l.val
  omega

/-- The reduced index (b, r) with lane l put back is (b, r, l). -/
theorem lift_lane (h : (⟨3, ![A, B, C]⟩ : Shape).Reduces [2] ⟨2, ![A, B]⟩) (b : Fin A) (r : Fin B)
    (l : Fin ((⟨3, ![A, B, C]⟩ : Shape).size 2)) : h.lift (ix2 b r) l = ix3 b r (⟨l.val, l.isLt⟩ : Fin C) := by
  funext c; apply Fin.ext
  fin_cases c <;> rfl

/-- The lane sum kept as a unit axis: an A×B×C array summed over its lanes and viewed as A×B×1 holds at
    (b, r, 0) the sum over l of the entries (b, r, l). -/
theorem lane_sum_keep_apply {φ : FTy} (src : FVec Ideal ⟨3, ![A, B, C]⟩ φ) (acc : BitVec φ.bits)
    (h : (⟨3, ![A, B, C]⟩ : Shape).Reduces [2] ⟨2, ![A, B]⟩) (hφ : FKind.Formats φ)
    (hacc : acc = FKind.add.neutral φ hφ) (hc : (⟨2, ![A, B]⟩ : Shape).ShapeCasts ⟨3, ![A, B, 1]⟩)
    (b : Fin A) (r : Fin B) :
    shapeCast ⟨3, ![A, B, 1]⟩ (multiReduction .add [2] ⟨2, ![A, B]⟩ src acc h hφ hacc) hc (ix3 b r 0)
      = ∑ l : Fin C, src (ix3 b r l) := by
  rw [shapeCast_apply _ hc (ix3 b r 0) (ix2 b r) (by
    rw [Shape.rowMajor_val_three, Shape.rowMajor_val_two]
    show b.val * B + r.val = (b.val * B + r.val) * 1 + 0
    omega)]
  rw [Ideal.multiReduction_add_single]
  exact Finset.sum_congr rfl fun l _ => congrArg src (lift_lane h b r l)

end Cert.Batch3

end
-- ==== Proof.KernelRow.lean ====
/-
  The kernel body's arithmetic on a block of 8 rows, read at an entry.

  The body works on 8 rows of logits (8 × 8192) and their 8 × 16 × 8192 noise values. Every step is either entrywise or
  acts inside one row: the row maximum of the logits is put back on the row's lanes, the shifted exponentials of a row
  are repeated over the row's 16 samples, the weights of a sample are summed over the lanes and the reciprocal of the
  sum is repeated over the lanes, and the last maximum runs over the 16 samples of a row. So the value the body stores
  at (r, d) is the first arrangement of the row specification, applied to row r of the logits block and to the 16 noise
  rows of row r, at lane d.
-/
import Idealize.ShloMosaic.PureOps.Ideal.Laws
import Idealize.ShloMosaic.Lib.ValueIdx
import Idealize.ShloMosaic.Lib.Pipeline.Value
import proofs.«129532_g24936580121125_cont_sun_m_130_1_alg».proof.Proof.RowSpec
import proofs.«129532_g24936580121125_cont_sun_m_130_1_alg».proof.Proof.LibKeepdims
import proofs.«129532_g24936580121125_cont_sun_m_130_1_alg».proof.Proof.LibRowOps
import proofs.«129532_g24936580121125_cont_sun_m_130_1_alg».proof.Proof.LibBatch3

noncomputable section

open scoped BigOperators

namespace Cert.GumbelMax.KernelRow

open Idealize.ShloMosaic Idealize.ShloMosaic.ValueIdx Cert.GumbelMax

abbrev S8 : Shape := ⟨1, ![8]⟩
abbrev S8x1 : Shape := ⟨2, ![8, 1]⟩
abbrev S8x8192 : Shape := ⟨2, ![8, 8192]⟩
abbrev S8x16 : Shape := ⟨2, ![8, 16]⟩
abbrev S8x16x1 : Shape := ⟨3, ![8, 16, 1]⟩
abbrev S8x1x8192 : Shape := ⟨3, ![8, 1, 8192]⟩
abbrev S8x16x8192 : Shape := ⟨3, ![8, 16, 8192]⟩

/-- An 8 × 8192 matrix viewed as 8 × 1 × 8192 holds at (b, 0, l) the matrix entry (b, l). -/
theorem addMid_apply {α : Type} (x : S8x8192.Idx → α) (h : S8x8192.ShapeCasts S8x1x8192) (b : Fin 8) (l : Fin 8192) :
    shapeCast S8x1x8192 x h (ix3 b (0 : Fin 1) l) = x (ix2 b l) := by
  refine shapeCast_apply x h (ix3 b (0 : Fin 1) l) (ix2 b l) ?_
  rw [Shape.rowMajor_val_three, Shape.rowMajor_val_two]
  show b.val * 8192 + l.val = (b.val * 1 + 0) * 8192 + l.val
  omega

/-- The index (b, l) of the result of a reduction over the middle axis, with the sample k put back, is (b, k, l). -/
theorem lift_mid (h : S8x16x8192.Reduces [1] S8x8192) (b : Fin 8) (l : Fin 8192) (k : Fin (S8x16x8192.size 1)) :
    h.lift (ix2 b l) k = ix3 b (⟨k.val, k.isLt⟩ : Fin 16) l := by
  funext c; apply Fin.ext
  fin_cases c <;> rfl

section
variable (h1 : S8x8192.Reduces [1] S8) (h2 : S8.ShapeCasts S8x1) (h3 : S8x1.Broadcasts S8x8192)
  (h4 : S8x8192.ShapeCasts S8x1x8192) (h5 : S8x1x8192.Broadcasts S8x16x8192)
  (h6 : S8x16x8192.Reduces [2] S8x16) (h7 : S8x16.ShapeCasts S8x16x1) (h8 : S8x16x1.Broadcasts S8x16x8192)
  (h9 : S8x16x8192.Reduces [1] S8x8192)
  (hφ : FKind.Formats .f32) (hmax : (0xFF800000#32 : BitVec 32) = FKind.maximumf.neutral .f32 hφ)
  (hadd : (0x00000000#32 : BitVec 32) = FKind.add.neutral .f32 hφ)
  (v0 : FVec Ideal S8x8192 .f32) (v8 : FVec Ideal S8x16x8192 .f32)

/-- Row r of the logits block. -/
abbrev lrow (r : Fin 8) : Fin 8192 → EReal := fun d => v0 (ix2 r d)
/-- The noise of row r: sample k, lane d. -/
abbrev urow (r : Fin 8) : Fin 16 → Fin 8192 → EReal := fun k d => v8 (ix3 r k d)

/-- The exponentials `exp (2 (l - m))`, m the row maximum put back on the lanes. -/
def expShift : FVec Ideal S8x8192 .f32 :=
  exp (mulf (broadcast S8x8192 (Scalar.ofBits .f32 0x40000000#32))
    (subf v0 (broadcastTo S8x8192 (shapeCast S8x1 (multiReduction .maximumf [1] S8 v0 0xFF800000#32 h1 hφ hmax) h2) h3)))

theorem expShift_apply (r : Fin 8) (d : Fin 8192) :
    expShift h1 h2 h3 hφ hmax v0 (ix2 r d) = Ideal.exp (two * (v0 (ix2 r d) - rowMax (lrow v0 r))) := by
  show Ideal.exp (two * (v0 (ix2 r d) - broadcastTo S8x8192 (shapeCast S8x1 _ h2) h3 (ix2 r d))) = _
  rw [Idealize.ShloMosaic.Keepdims.column_apply, RowOps.rowMax_apply]
  rfl

/-- `w = 0 - log (max u c)`, entrywise. -/
def negLogV : FVec Ideal S8x16x8192 .f32 :=
  subf (broadcast S8x16x8192 (Scalar.ofBits .f32 0x00000000#32))
    (log (maximumf v8 (broadcast S8x16x8192 (Scalar.ofBits .f32 0x2EDBE6FF#32))))

theorem negLogV_apply (i : S8x16x8192.Idx) : negLogV v8 i = negLog (v8 i) := rfl

/-- The weights `exp (2 (l - m)) / (w · w)`: the exponentials repeated over the 16 samples of their row. -/
def weightV : FVec Ideal S8x16x8192 .f32 :=
  divf (broadcastTo S8x16x8192 (shapeCast S8x1x8192 (expShift h1 h2 h3 hφ hmax v0) h4) h5)
    (mulf (negLogV v8) (negLogV v8))

theorem weightV_apply (r : Fin 8) (k : Fin 16) (d : Fin 8192) :
    weightV h1 h2 h3 h4 h5 hφ hmax v0 v8 (ix3 r k d) = weightK (lrow v0 r) (urow v8 r k) d := by
  show Ideal.div (broadcastTo S8x16x8192 (shapeCast S8x1x8192 (expShift h1 h2 h3 hφ hmax v0) h4) h5 (ix3 r k d))
    (negLogV v8 (ix3 r k d) * negLogV v8 (ix3 r k d)) = _
  rw [Cert.Batch3.bcast_row_apply, addMid_apply, expShift_apply, negLogV_apply]
  rfl

/-- The reciprocal of a sample's sum of weights over the lanes, kept as an 8 × 16 × 1 column. -/
def recipV : FVec Ideal S8x16x1 .f32 :=
  divf (broadcast S8x16x1 (Scalar.ofBits .f32 0x3F800000#32))
    (shapeCast S8x16x1 (multiReduction .add [2] S8x16 (weightV h1 h2 h3 h4 h5 hφ hmax v0 v8) 0x00000000#32 h6 hφ hadd) h7)

theorem recipV_apply (r : Fin 8) (k : Fin 16) :
    recipV h1 h2 h3 h4 h5 h6 h7 hφ hmax hadd v0 v8 (ix3 r k (0 : Fin 1))
      = Ideal.div one (∑ d', weightK (lrow v0 r) (urow v8 r k) d') := by
  show Ideal.div one (shapeCast S8x16x1 _ h7 (ix3 r k (0 : Fin 1))) = _
  rw [Cert.Batch3.lane_sum_keep_apply]
  exact congrArg (Ideal.div one) (Finset.sum_congr rfl fun d' _ => weightV_apply h1 h2 h3 h4 h5 hφ hmax v0 v8 r k d')

/-- The normalised weights: each weight times its sample's reciprocal, repeated over the lanes. -/
def probV : FVec Ideal S8x16x8192 .f32 :=
  mulf (weightV h1 h2 h3 h4 h5 hφ hmax v0 v8)
    (broadcastTo S8x16x8192 (recipV h1 h2 h3 h4 h5 h6 h7 hφ hmax hadd v0 v8) h8)

theorem probV_apply (r : Fin 8) (k : Fin 16) (d : Fin 8192) :
    probV h1 h2 h3 h4 h5 h6 h7 h8 hφ hmax hadd v0 v8 (ix3 r k d) = probK (lrow v0 r) (urow v8 r k) d := by
  show weightV h1 h2 h3 h4 h5 hφ hmax v0 v8 (ix3 r k d)
    * broadcastTo S8x16x8192 (recipV h1 h2 h3 h4 h5 h6 h7 hφ hmax hadd v0 v8) h8 (ix3 r k d) = _
  rw [Cert.Batch3.bcast_col_apply, recipV_apply, weightV_apply]
  rfl

/-- The stored value: the maximum over the 16 samples of the normalised weights. -/
def outV : FVec Ideal S8x8192 .f32 :=
  multiReduction .maximumf [1] S8x8192 (probV h1 h2 h3 h4 h5 h6 h7 h8 hφ hmax hadd v0 v8) 0xFF800000#32 h9 hφ hmax

/-- At (r, d) the body stores the first arrangement of row r at lane d. -/
theorem outV_apply (r : Fin 8) (d : Fin 8192) :
    outV h1 h2 h3 h4 h5 h6 h7 h8 h9 hφ hmax hadd v0 v8 (ix2 r d) = rowK (lrow v0 r) (urow v8 r) d := by
  have hf : (probV h1 h2 h3 h4 h5 h6 h7 h8 hφ hmax hadd v0 v8 ∘ h9.lift (ix2 r d))
      = fun k : Fin 16 => probK (lrow v0 r) (urow v8 r k) d :=
    funext fun k => (congrArg (probV h1 h2 h3 h4 h5 h6 h7 h8 hφ hmax hadd v0 v8) (lift_mid h9 r d k)).trans
      (probV_apply h1 h2 h3 h4 h5 h6 h7 h8 hφ hmax hadd v0 v8 r (⟨k.val, k.isLt⟩ : Fin 16) d)
  unfold outV
  refine (Ideal.multiReduction_maximumf_single (φ := .f32) (probV h1 h2 h3 h4 h5 h6 h7 h8 hφ hmax hadd v0 v8)
    0xFF800000#32 h9 hφ hmax (ix2 r d)).trans ?_
  exact congrArg (fun f => Finset.fold max negInf f (Finset.univ : Finset (Fin 16))) hf

end

end Cert.GumbelMax.KernelRow

end
-- ==== Proof.KernelArray.lean ====
/-
  From the kernel's blocks to the whole output array.

  The grid has 16 points. Point t works on rows 8 t … 8 t + 7: it reads those rows of the logits (all 8192 lanes) and
  of the noise (all 16 samples, all lanes), and writes those rows of the output. Every output entry depends only on its
  own row, so the block a point writes is the restriction to its rows of ONE function of the whole argument arrays:
  entry (b, d) is the first arrangement of the row specification applied to row b of the logits and of the noise. The
  16 blocks tile the 128 rows, so after the run the output array is that function.
-/
import proofs.«129532_g24936580121125_cont_sun_m_130_1_alg».proof.Proof.Gen.KernelIdeal.Value
import proofs.«129532_g24936580121125_cont_sun_m_130_1_alg».proof.Proof.KernelRow

noncomputable section

namespace Cert.GumbelMax.KernelArray

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Cert.GumbelMax

/-! ## What the body stores, at an entry of the block -/

/-- At (r, d) the body stores the first arrangement of row r of its two blocks, at lane d. -/
theorem pay_apply (x0 : Vec Ideal S8x8192 .f32) (x1 : Vec Ideal S8x16x8192 .f32) (r : Fin 8) (d : Fin 8192) :
    k0_pay1 (F := Ideal) x0 x1 (ix2 r d) = rowK (fun d' : Fin 8192 => x0 (ix2 r d')) (fun (k : Fin 16) (d' : Fin 8192) => x1 (ix3 r k d')) d :=
  KernelRow.outV_apply reduces_S8x8192_S8 shapeCasts_S8_S8x1 broadcasts_S8x1_S8x8192 shapeCasts_S8x8192_S8x1x8192
    broadcasts_S8x1x8192_S8x16x8192 reduces_S8x16x8192_S8x16 shapeCasts_S8x16_S8x16x1 broadcasts_S8x16x1_S8x16x8192
    reduces_S8x16x8192_S8x8192 (.inl rfl) rfl rfl x0 x1 r d

/-! ## The whole array -/

/-- The output as one function of the argument arrays: entry (b, d) from row b of the logits and of the noise. -/
def G (a0 : S128x8192.Idx → EReal) (a1 : S128x16x8192.Idx → EReal) : S128x8192.Idx → EReal :=
  fun i => rowK (fun d : Fin 8192 => a0 (ix2 (⟨(i 0).val, (i 0).isLt⟩ : Fin 128) d))
    (fun (k : Fin 16) (d : Fin 8192) => a1 (ix3 (⟨(i 0).val, (i 0).isLt⟩ : Fin 128) k d)) (⟨(i 1).val, (i 1).isLt⟩ : Fin 8192)

theorem G_apply (a0 : S128x8192.Idx → EReal) (a1 : S128x16x8192.Idx → EReal) (b : Fin 128) (d : Fin 8192) :
    G a0 a1 (ix2 b d) = rowK (fun d' : Fin 8192 => a0 (ix2 b d')) (fun (k : Fin 16) (d' : Fin 8192) => a1 (ix3 b k d')) d := rfl

/-- A block whose row r is row b of the arrays stores at (r, d) the array function's entry (b, d). -/
theorem block_apply (x0 : Vec Ideal S8x8192 .f32) (x1 : Vec Ideal S8x16x8192 .f32)
    (a0 : S128x8192.Idx → EReal) (a1 : S128x16x8192.Idx → EReal) (b : Fin 128) (r : Fin 8) (d : Fin 8192)
    (e0 : ∀ d' : Fin 8192, x0 (ix2 r d') = a0 (ix2 b d'))
    (e1 : ∀ (k : Fin 16) (d' : Fin 8192), x1 (ix3 r k d') = a1 (ix3 b k d')) :
    k0_pay1 (F := Ideal) x0 x1 (ix2 r d) = G a0 a1 (ix2 b d) := by
  rw [pay_apply, G_apply]
  exact congrArg₂ (fun (l : Fin 8192 → EReal) (u : Fin 16 → Fin 8192 → EReal) => rowK l u d)
    (funext e0) (funext fun k => funext (e1 k))

/-! ## The blocks -/

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps over the grid: the three windows move together along the rows and stay at lane block 0 (and the noise
    window at sample block 0); there are 16 row blocks. -/
theorem idx_facts : ∀ t : Fin cfg0.N, win0_0.index t (0 : Fin 2) = win0_2.index t (0 : Fin 2)
    ∧ win0_0.index t (1 : Fin 2) = 0
    ∧ win0_1.index t (0 : Fin 3) = win0_2.index t (0 : Fin 2)
    ∧ win0_1.index t (1 : Fin 3) = 0
    ∧ win0_1.index t (2 : Fin 3) = 0
    ∧ win0_2.index t (1 : Fin 2) = 0
    ∧ win0_2.index t (0 : Fin 2) ≤ 15 :=
  (by decide +kernel : ∀ t : Fin grid0.N, _)

/-- Every row block is some point's. -/
theorem idx_onto : ∀ q : Fin 16, ∃ t : Fin cfg0.N, win0_2.index t = ![q.val, 0] :=
  (by decide +kernel : ∀ q : Fin 16, ∃ t : Fin grid0.N, win0_2.index t = ![q.val, 0])

/-- What point t writes back is block t of the array function of the argument arrays as the region finds them. -/
theorem flushed_eq (c : Dev nD) (t : Fin cfg0.N) :
    (dats m 0 c).flushed 2 t = ((cfg0.win 2).blk t).view.read (Elt Ideal) (G (V m c main_arg0) (V m c main_arg1)) := by
  rw [flushed2]
  unfold out0_2
  rw [View.canon_unit_zero hz2]
  simp only [View.ld_unit_zero (S := S8x8192) hz2, View.ld_unit_zero (S := S8x16x8192) hz3]
  obtain ⟨f0, f1, f2, f3, f4, f5, f6⟩ := idx_facts t
  funext j
  obtain ⟨r, d, rfl⟩ : ∃ (r : Fin 8) (d : Fin 8192), j = ix2 r d := ⟨j 0, j 1, eq_ix2 j⟩
  show k0_pay1 (F := Ideal) (iblk m c 0 t) (iblk m c 1 t) (ix2 r d)
    = G (V m c main_arg0) (V m c main_arg1) (((cfg0.win 2).blk t).view.emb (ix2 r d))
  refine (block_apply (iblk m c 0 t) (iblk m c 1 t) (V m c main_arg0) (V m c main_arg1)
    (⟨win0_2.index t (0 : Fin 2) * 8 + r.val, by have := r.isLt; omega⟩ : Fin 128) r d ?_ ?_).trans ?_
  · intro d'
    show V m c main_arg0 (((cfg0.win 0).blk t).view.emb (ix2 r d')) = _
    refine congrArg (V m c main_arg0) (funext fun a => Fin.ext ?_)
    match a with
    | ⟨0, _⟩ => show win0_0.index t (0 : Fin 2) * 8 + 1 * r.val = win0_2.index t (0 : Fin 2) * 8 + r.val; omega
    | ⟨1, _⟩ => show win0_0.index t (1 : Fin 2) * 8192 + 1 * d'.val = d'.val; omega
  · intro k d'
    show V m c main_arg1 (((cfg0.win 1).blk t).view.emb (ix3 r k d')) = _
    refine congrArg (V m c main_arg1) (funext fun a => Fin.ext ?_)
    match a with
    | ⟨0, _⟩ => show win0_1.index t (0 : Fin 3) * 8 + 1 * r.val = win0_2.index t (0 : Fin 2) * 8 + r.val; omega
    | ⟨1, _⟩ => show win0_1.index t (1 : Fin 3) * 16 + 1 * k.val = k.val; omega
    | ⟨2, _⟩ => show win0_1.index t (2 : Fin 3) * 8192 + 1 * d'.val = d'.val; omega
  · refine congrArg (G (V m c main_arg0) (V m c main_arg1)) (funext fun a => Fin.ext ?_)
    match a with
    | ⟨0, _⟩ => show win0_2.index t (0 : Fin 2) * 8 + r.val = win0_2.index t (0 : Fin 2) * 8 + 1 * r.val; omega
    | ⟨1, _⟩ => show d.val = win0_2.index t (1 : Fin 2) * 8192 + 1 * d.val; omega

/-- An index of the array is in point t's block iff each coordinate is in the block's range on its axis. -/
theorem mem_blk (t : Fin cfg0.N) (i : S128x8192.Idx) :
    i ∈ ((cfg0.win 2).blk t).view.set ↔ ∀ a : Fin 2, win0_2.index t a * S8x8192.size a ≤ (i a).val
      ∧ (i a).val < win0_2.index t a * S8x8192.size a + S8x8192.size a := by
  show i ∈ ((View.whole main_v0).slice (win0_2.rect t)).set ↔ _
  rw [View.set_slice_whole, Rect.mem_set_unit]
  exact Iff.rfl

/-- Every entry of the output is in the block of the point that owns its row, point ⌊row / 8⌋. -/
theorem cover (i : S128x8192.Idx) : ∃ t : Fin cfg0.N, (cfg0.win 2).flush t = true ∧ i ∈ ((cfg0.win 2).blk t).view.set := by
  have hi0 : (i 0).val < 128 := (i 0).isLt
  have hi1 : (i 1).val < 8192 := (i 1).isLt
  obtain ⟨t, ht⟩ := idx_onto ⟨(i 0).val / 8, by omega⟩
  have q0 : win0_2.index t (0 : Fin 2) = (i 0).val / 8 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 8192 ≤ (i 1).val ∧ (i 1).val < win0_2.index t (1 : Fin 2) * 8192 + 8192; omega

/-- The output array after the run is the array function of the argument arrays. -/
theorem final (c : Dev nD) :
    (dats m 0 c).arrAt 2 cfg0.N = G (m ((c : Thread nD τ).loc main_arg0)) (m ((c : Thread nD τ).loc main_arg1)) :=
  (dats m 0 c).arrAt_eq_of_cover 2 (G (V m c main_arg0) (V m c main_arg1)) (fun t _ => flushed_eq m c t) cover

/-- The kernel's run: it ends with the output array at the array function of the arguments, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.GumbelMax.KernelArray

end
-- ==== Proof.RefRow.lean ====
/-
  The reference's result read at an entry.

  The reference perturbs, scales, shifts and normalises entrywise or inside one (batch row, sample) pair: the clipped
  noise and its two logarithms are entrywise, the logits of batch row b are repeated over the 16 samples, the maximum
  and the sum of a softmax run over the 8192 lanes of one (b, k) and are put back on those lanes, and the last
  maximum runs over the 16 samples of batch row b. So the result at (b, d) is the second arrangement of the row
  specification, applied to row b of the logits and to the 16 noise rows of b, at lane d.
-/
import proofs.«129532_g24936580121125_cont_sun_m_130_1_alg».proof.Proof.Gen.ReferenceIdeal.Read
import proofs.«129532_g24936580121125_cont_sun_m_130_1_alg».proof.Proof.RowSpec
import proofs.«129532_g24936580121125_cont_sun_m_130_1_alg».proof.Proof.LibBatch3
import Idealize.ShloMosaic.Lib.ValueIdx
import Idealize.ShloMosaic.PureOps.Ideal.Laws

noncomputable section

open scoped BigOperators

namespace Cert.GumbelMax.RefRow

open Cert.ReferenceIdeal Cert.ReferenceIdeal.Gen Cert.ReferenceIdeal.Read Idealize.ShloMosaic Idealize.ShloMosaic.ValueIdx
open Cert.GumbelMax

variable (x0 : (⟨S128x8192, .f32⟩ : BufTy).Contents (Elt Ideal)) (x1 : (⟨S128x16x8192, .f32⟩ : BufTy).Contents (Elt Ideal))

/-- Row b of the logits. -/
abbrev lrow (b : Fin 128) : Fin 8192 → EReal := fun d => x0 (ix2 b d)
/-- The noise of batch row b: sample k, lane d. -/
abbrev urow (b : Fin 128) : Fin 16 → Fin 8192 → EReal := fun k d => x1 (ix3 b k d)

/-- The reduced index (b, l) of a reduction over the samples, with sample k put back, is (b, k, l). -/
theorem lift_sample (h : S128x16x8192.Reduces [1] S128x8192) (b : Fin 128) (l : Fin 8192) (k : Fin (S128x16x8192.size 1)) :
    h.lift (ix2 b l) k = ix3 b (⟨k.val, k.isLt⟩ : Fin 16) l := by
  funext c; apply Fin.ext
  fin_cases c <;> rfl

/-- The perturbed logit at temperature one half. -/
theorem logit_apply (b : Fin 128) (k : Fin 16) (d : Fin 8192) :
    val_main_v9 (F := Ideal) x0 x1 (ix3 b k d) = logitR (lrow x0 b) (urow x1 b k) d := by
  have e : idx_main_v0 (idx_main_v6 (ix3 b k d)) = ix2 b d :=
    funext fun a => Fin.ext (by match a with | ⟨0, _⟩ => rfl | ⟨1, _⟩ => rfl)
  rw [val_main_v9_apply, val_main_v7_apply, val_main_v5_apply, val_main_v4_apply, val_main_v3_apply, val_main_v2_apply,
    val_main_v1_apply, val_main_call0_v1_apply, val_main_call0_v0_apply, val_main_cst_apply, val_main_v6_apply,
    val_main_v0_apply, val_main_v8_apply, val_main_cst_0_apply, e]
  rfl

/-- The maximum of the perturbed logits over the lanes of (b, k), taken once more with minus infinity. -/
theorem shift_apply (b : Fin 128) (k : Fin 16) (d : Fin 8192) :
    val_main_v14 (F := Ideal) x0 x1 (ix3 b k d) = max negInf (rowMax (logitR (lrow x0 b) (urow x1 b k))) := by
  have e : idx_main_v13 (idx_main_v14 (ix3 b k d)) = ix2 b k :=
    funext fun a => Fin.ext (by match a with | ⟨0, _⟩ => rfl | ⟨1, _⟩ => rfl)
  have hred : S128x16x8192.Reduces [2] S128x16 := by decide
  rw [val_main_v14_apply, val_main_v13_apply, e, val_main_v12_apply, val_main_v11_apply, val_main_cst_2_apply]
  refine congrArg (max negInf) ?_
  unfold val_main_v10
  refine (Host.reduce_eq_fold_single FloatOps.maximumf _ _ reducesTo_S128x16x8192_S128x16_d2 hred h_S_ (ix2 b k)).trans ?_
  have hf : (val_main_v9 (F := Ideal) x0 x1 ∘ hred.lift (ix2 b k)) = logitR (lrow x0 b) (urow x1 b k) :=
    funext fun l => (congrArg _ (Cert.Batch3.lift_lane hred b k l)).trans (logit_apply x0 x1 b k _)
  exact congrArg (fun f => Finset.fold max negInf f (Finset.univ : Finset (Fin 8192))) hf

/-- The shifted exponential. -/
theorem weight_apply (b : Fin 128) (k : Fin 16) (d : Fin 8192) :
    val_main_v16 (F := Ideal) x0 x1 (ix3 b k d) = weightR (lrow x0 b) (urow x1 b k) d := by
  rw [val_main_v16_apply, val_main_v15_apply, logit_apply, shift_apply]
  rfl

/-- The softmax. -/
theorem prob_apply (b : Fin 128) (k : Fin 16) (d : Fin 8192) :
    val_main_v20 (F := Ideal) x0 x1 (ix3 b k d) = probR (lrow x0 b) (urow x1 b k) d := by
  have e : idx_main_v18 (idx_main_v19 (ix3 b k d)) = ix2 b k :=
    funext fun a => Fin.ext (by match a with | ⟨0, _⟩ => rfl | ⟨1, _⟩ => rfl)
  have e' : ∀ l : Fin 8192, idx_main_v17 (ix2 b k) l = ix3 b k l := fun l =>
    funext fun a => Fin.ext (by match a with | ⟨0, _⟩ => rfl | ⟨1, _⟩ => rfl | ⟨2, _⟩ => rfl)
  rw [val_main_v20_apply, val_main_v19_apply, val_main_v18_apply, e, val_main_v17_apply, val_main_cst_3_apply, weight_apply]
  refine congrArg (fun s => Ideal.div (weightR (lrow x0 b) (urow x1 b k) d) (zero + s)) ?_
  exact Finset.sum_congr rfl fun l _ => by rw [e' l, weight_apply]

/-- The reference's result at (b, d) is the second arrangement of row b at lane d. -/
theorem result_apply (b : Fin 128) (d : Fin 8192) :
    val_main_v21 (F := Ideal) x0 x1 (ix2 b d) = rowR (lrow x0 b) (urow x1 b) d := by
  have hred : S128x16x8192.Reduces [1] S128x8192 := by decide
  unfold val_main_v21
  refine (Host.reduce_eq_fold_single FloatOps.maximumf _ _ reducesTo_S128x16x8192_S128x8192_d1 hred h_S_ (ix2 b d)).trans ?_
  have hf : (val_main_v20 (F := Ideal) x0 x1 ∘ hred.lift (ix2 b d)) = fun k : Fin 16 => probR (lrow x0 b) (urow x1 b k) d :=
    funext fun k => (congrArg _ (lift_sample hred b d k)).trans (prob_apply x0 x1 b _ d)
  exact congrArg (fun f => Finset.fold max negInf f (Finset.univ : Finset (Fin 16))) hf

end Cert.GumbelMax.RefRow

end
-- ==== Proof.Pre.lean ====
/-
  What the precondition says of the argument arrays.

  The precondition is a conjunction of three tests taken over all entries: the absolute value of every logit is below
  plus infinity, the absolute value of every noise value is below plus infinity, and every noise value is below one.
  An extended real whose absolute value is below plus infinity is neither infinity, hence a real number. So every logit
  is a real, and every noise value is a real below one.
-/
import proofs.«129532_g24936580121125_cont_sun_m_130_1_alg».proof.Pre_finite_inputs
import proofs.«129532_g24936580121125_cont_sun_m_130_1_alg».proof.Proof.Gen.Pre_finite_inputs
import proofs.«129532_g24936580121125_cont_sun_m_130_1_alg».proof.Proof.Consts
import Idealize.ShloMosaic.Lib.ReduceAll
import Idealize.ShloMosaic.Lib.ValueIdx
import Idealize.ShloMosaic.PureOps.Ideal.Laws

noncomputable section

namespace Cert.GumbelMax.Pre

open Idealize.ShloMosaic Idealize.ShloMosaic.ValueIdx
open Cert.Pre_finite_inputs Cert.Pre_finite_inputs.Gen

/-- The pattern of plus infinity. -/
theorem ofBits_posInf : Ideal.ofBits .f32 0x7F800000#32 = (⊤ : EReal) := by
  simp [Ideal.ofBits, Ideal.ieee]

/-- A strict comparison that answers one says the order holds. -/
theorem lt_of_cmp {x y : EReal} (h : Ideal.cmp .olt x y = 1#1) : x < y := by
  by_contra hn
  have h0 : Ideal.cmp .olt x y = 0#1 := by
    show BitVec.ofBool (decide (x < y)) = 0#1
    rw [decide_eq_false hn]; rfl
  rw [h0] at h
  exact absurd h (by decide)

/-- An extended real whose absolute value is below plus infinity is a real. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- Under the precondition every logit is a real and every noise value is a real below one. -/
theorem decode (x0 : FVec Ideal S128x8192 .f32) (x1 : FVec Ideal S128x16x8192 .f32)
    (h : Cert.Pre_finite_inputs.fn (F := Ideal) x0 x1 = fun _ => 1#1) :
    (∀ i, ∃ r : ℝ, x0 i = (r : EReal)) ∧ (∀ i, ∃ r : ℝ, x1 i = (r : EReal) ∧ r < 1) := by
  have h0 := congrFun h ix0
  dsimp only [Cert.Pre_finite_inputs.fn] at h0
  obtain ⟨h01, h2⟩ := IntOp.andi_eq_one.1 h0
  obtain ⟨h0a, h1⟩ := IntOp.andi_eq_one.1 h01
  haveI : Subsingleton (Cert.Pre_finite_inputs.S_).Idx := ⟨fun a b => funext fun d => d.elim0⟩
  have e0 := fun i => Host.reduce_andi_all _ _ _ _ _ h0a i
  have e1 := fun i => Host.reduce_andi_all _ _ _ _ _ h1 i
  have e2 := fun i => Host.reduce_andi_all _ _ _ _ _ h2 i
  have fin0 : ∀ i, ∃ r : ℝ, x0 i = (r : EReal) := fun i => by
    have hlt := lt_of_cmp (show Ideal.cmp .olt (max (x0 i) (-(x0 i))) (Ideal.ofBits .f32 0x7F800000#32) = 1#1 from e0 i)
    rw [ofBits_posInf] at hlt
    exact real_of_abs_lt_top _ hlt
  refine ⟨fin0, fun i => ?_⟩
  have hlt := lt_of_cmp (show Ideal.cmp .olt (max (x1 i) (-(x1 i))) (Ideal.ofBits .f32 0x7F800000#32) = 1#1 from e1 i)
  rw [ofBits_posInf] at hlt
  obtain ⟨r, hr⟩ := real_of_abs_lt_top _ hlt
  have hone := lt_of_cmp (show Ideal.cmp .olt (x1 i) (Ideal.ofBits .f32 0x3F800000#32) = 1#1 from e2 i)
  rw [Consts.ofBits_one, hr] at hone
  exact ⟨r, hr, EReal.coe_lt_coe_iff.1 hone⟩

end Cert.GumbelMax.Pre

end
-- ==== Proof.lean ====
/-
  Gumbel-softmax sampling at temperature one half with the maximum over the samples: the kernel against its reference.

  For logits `l` (128 × 8192) and noise `u` (128 × 16 × 8192), put `w = -log (max u c)`, `c` the small positive clip.
  The reference forms the perturbed logits `(-log w + l) / (1/2)`, takes their softmax over the lanes for every batch row
  and sample, and then the maximum over the 16 samples. The kernel uses that `exp (2 (-log w + l)) = exp (2 l) / w²`: it
  shifts the logits by their row maximum, forms `exp (2 (l - m)) / (w · w)`, normalises by the reciprocal of the sum over
  the lanes and takes the maximum over the samples, 8 batch rows per grid point.

  The claim is stated for logits that are real numbers and noise values that are real numbers below one. Then
  `max u c` lies strictly between zero and one, `w` is a positive real, both logarithms are defined, and every quantity
  either program forms is a real number. The two softmax shifts — the kernel's maximum of the logits, the reference's
  maximum of the perturbed logits — are factors common to all lanes and cancel in the quotient, so both programs
  compute `exp (2 l) / w²` over its sum across the lanes, and the same maximum over the samples of it (Proof/RowMath.lean).
  For a noise value of one or more the reference takes the logarithm of a number that is not positive, and the two
  programs no longer agree.

  The kernel's side: the body's arithmetic at an entry of a block is the row specification of that block row
  (Proof/KernelRow.lean), and the 16 blocks of 8 rows tile the output (Proof/KernelArray.lean). The reference's side:
  its stages read at an entry (Proof/RefRow.lean). The precondition read entry by entry is Proof/Pre.lean. The kernel's
  idealization rewrote nothing, so that conjunct is trivial.
-/
import proofs.«129532_g24936580121125_cont_sun_m_130_1_alg».proof.Defs
import proofs.«129532_g24936580121125_cont_sun_m_130_1_alg».proof.Proof.Gen.Kernel
import proofs.«129532_g24936580121125_cont_sun_m_130_1_alg».proof.Proof.Gen.Kernel.Skeleton
import proofs.«129532_g24936580121125_cont_sun_m_130_1_alg».proof.Proof.Gen.Kernel.Launch
import proofs.«129532_g24936580121125_cont_sun_m_130_1_alg».proof.Proof.Gen.Kernel.Points
import proofs.«129532_g24936580121125_cont_sun_m_130_1_alg».proof.Proof.Gen.Kernel.Frame
import proofs.«129532_g24936580121125_cont_sun_m_130_1_alg».proof.Proof.Gen.KernelIdeal
import proofs.«129532_g24936580121125_cont_sun_m_130_1_alg».proof.Proof.Gen.KernelIdeal.Skeleton
import proofs.«129532_g24936580121125_cont_sun_m_130_1_alg».proof.Proof.Gen.KernelIdeal.Launch
import proofs.«129532_g24936580121125_cont_sun_m_130_1_alg».proof.Proof.Gen.KernelIdeal.Points
import proofs.«129532_g24936580121125_cont_sun_m_130_1_alg».proof.Proof.Gen.KernelIdeal.Frame
import proofs.«129532_g24936580121125_cont_sun_m_130_1_alg».proof.Proof.Gen.ReferenceIdeal
import proofs.«129532_g24936580121125_cont_sun_m_130_1_alg».proof.Proof.Gen.Pre_finite_inputs
import proofs.«129532_g24936580121125_cont_sun_m_130_1_alg».proof.Proof.Gen.KernelIdeal.Value
import proofs.«129532_g24936580121125_cont_sun_m_130_1_alg».proof.Proof.Gen.ReferenceIdeal.Run
import proofs.«129532_g24936580121125_cont_sun_m_130_1_alg».proof.Proof.Gen.ReferenceIdeal.Read
import proofs.«129532_g24936580121125_cont_sun_m_130_1_alg».proof.Proof.RowMath
import proofs.«129532_g24936580121125_cont_sun_m_130_1_alg».proof.Proof.KernelArray
import proofs.«129532_g24936580121125_cont_sun_m_130_1_alg».proof.Proof.RefRow
import proofs.«129532_g24936580121125_cont_sun_m_130_1_alg».proof.Proof.Pre
import Idealize.ShloMosaic.Adequacy
import Idealize.ShloMosaic.Init

noncomputable section

namespace Cert.Proof

open Idealize.ShloMosaic Idealize.ShloMosaic.ValueIdx Idealize.SL.Sem Cert.GumbelMax

/-- The kernel as printed runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On logits that are reals and noise values that are reals below one, the kernel's output array and the reference's
    result are the same array: entry (b, d) of either is the row specification of batch row b at lane d, in the first
    arrangement for the kernel and in the second for the reference, and the two arrangements agree. -/
theorem algebraic : Cert.algebraic_KernelIdeal_ReferenceIdeal := by
  intro m ρ m' ρ' hpre hagree
  refine ⟨fun c => KernelArray.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), KernelArray.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v21_eq]
  obtain ⟨hfin0, hfin1⟩ := Pre.decode _ _ (hpre c)
  funext i
  obtain ⟨b, d, rfl⟩ : ∃ (b : Fin 128) (d : Fin 8192), i = ix2 b d := ⟨i 0, i 1, eq_ix2 i⟩
  rw [RefRow.result_apply]
  show rowR _ _ d = KernelArray.G _ _ (ix2 b d)
  rw [KernelArray.G_apply]
  exact (rowK_eq_rowR _ _ (fun d' => hfin0 _) (fun k d' => hfin1 _) d).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
